-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64x64 .f32) (main_arg6 : FVec F S64 .f32) (main_arg7 : FVec F S64x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S50000x64 : Shape := ⟨2, ![50000, 64]⟩
abbrev S5000x128 : Shape := ⟨2, ![5000, 128]⟩
abbrev S5000x64 : Shape := ⟨2, ![5000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x1 : Shape := ⟨2, ![50000, 1]⟩
abbrev S5000x1 : Shape := ⟨2, ![5000, 1]⟩

abbrev nBuf : Space → Nat
  | .hbm => 65
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x64, .f32⟩
  | .hbm, ⟨10, _⟩ => ⟨S1x64, .f32⟩
  | .hbm, ⟨11, _⟩ => ⟨S1x1, .f32⟩
  | .hbm, ⟨12, _⟩ => ⟨S50000x64, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S850000x1, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S1x64, .f32⟩
  | .local _ .vmem, ⟨11, _⟩ => ⟨S64x1, .f32⟩
  | .local _ .vmem, ⟨12, _⟩ => ⟨S1x1, .f32⟩
  | .local _ .vmem, ⟨13, _⟩ => ⟨S5000x1, .f32⟩
  | .local _ .vmem, ⟨14, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .f32 = 32 ∨ (Rect.block (s := S50000x1) S5000x1.size (cc1_transform_5 i) (hinb1_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x64 : Shape := ⟨2, ![850000, 64]⟩
abbrev S50000x1 : Shape := ⟨2, ![50000, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S50000x64, .f32⟩
  | .hbm, ⟨10, _⟩ => ⟨S1x64, .f32⟩
  | .hbm, ⟨11, _⟩ => ⟨S50000x64, .f32⟩
  | .hbm, ⟨12, _⟩ => ⟨S50000x64, .f32⟩
  | .hbm, ⟨13, _⟩ => ⟨S_, .f32⟩
  | .hbm, ⟨14, _⟩ => ⟨S50000x64, .f32⟩
  | .hbm, ⟨15, _⟩ => ⟨S50000x64, .f32⟩
  | .hbm, ⟨16, _⟩ => ⟨S50000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S1x800000, .i32⟩
  | .hbm, ⟨21, _⟩ => ⟨S800000, .i32⟩
  | .hbm, ⟨22, _⟩ => ⟨S850000, .i32⟩
  | .hbm, ⟨23, _⟩ => ⟨S50000x64, .f32⟩
  | .hbm, ⟨24, _⟩ => ⟨S_, .f32⟩
  | .hbm, ⟨25, _⟩ => ⟨S850000, .f32⟩
  | .hbm, ⟨26, _⟩ => ⟨S_, .f32⟩
  | .hbm, ⟨27, _⟩ => ⟨S50000, .f32⟩
  | .hbm, ⟨28, _⟩ => ⟨S850000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S50000x64, .f32⟩
  | .hbm, ⟨74, _⟩ => ⟨S50000x64, .f32⟩
  | .hbm, ⟨75, _⟩ => ⟨S50000x1, .f32⟩
  | .hbm, ⟨76, _⟩ => ⟨S1x1, .f32⟩
  | .hbm, ⟨77, _⟩ => ⟨S50000x1, .f32⟩
  | .hbm, ⟨78, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The kernel program's run, with its result named.

  @main of the kernel program is four segments: the reshapes, the first region, the propagation, the second
  region.  The contents of every buffer at each boundary form a fold through the segments (`W0 … W4`); every
  weakly fair execution ends with every unscoped buffer at the last stage `W4` of that fold.  The frame claim
  reads the nine argument buffers off that final state; here the result buffer is read off it as well, so that
  its value can be computed from the fold.
-/
import proofs.«175589_j61040075211144_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of
    the boundary fold and the argument buffers as launched. -/
theorem run_named : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.Layer.lean ====
/-
  The arithmetic both programs perform on one row, stated once and over plain finite index types.

  A graph-convolution network of two dense stages: each stage takes a row `x`, applies an affine map
  `x ↦ x·A + b`, rectifies it (`max · 0`), and multiplies the rectified row by one column `v` of a second
  matrix.  Over the extended reals this is the single expression

      ∑ₖ max (∑ⱼ xⱼ · Aⱼₖ + bₖ) 0 · vₖ .

  Nothing is evaluated here: the zero the rectifier compares against is kept as the f32 zero word, the
  same word on both sides, and no law of the extended reals beyond reading a sum term by term is used.
-/
import Idealize.ShloMosaic.PureOps.Ideal
import Idealize.ShloMosaic.Lib.ValueIdx

noncomputable section

open Idealize.ShloMosaic

namespace Cert.Gcn

/-- The f32 zero word read as an extended real (never unfolded: both programs compare against the same word). -/
abbrev zeroWord : EReal := Ideal.ofBits .f32 0x00000000#32

/-- One rectified affine layer followed by the product with a column:
    `∑ₖ max (∑ⱼ xⱼ · Aⱼₖ + bₖ) 0 · vₖ`. -/
def reluDot {K H : Nat} (x : Fin K → EReal) (A : Fin K → Fin H → EReal) (b : Fin H → EReal) (v : Fin H → EReal) : EReal :=
  ∑ k : Fin H, max (∑ j : Fin K, x j * A j k + b k) zeroWord * v k

/-- `reluDot` depends on its four arguments only through their values. -/
theorem reluDot_congr {K H : Nat} {x x' : Fin K → EReal} {A A' : Fin K → Fin H → EReal} {b b' v v' : Fin H → EReal}
    (hx : ∀ j, x j = x' j) (hA : ∀ j k, A j k = A' j k) (hb : ∀ k, b k = b' k) (hv : ∀ k, v k = v' k) :
    reluDot x A b v = reluDot x' A' b' v' := by
  have e1 : x = x' := funext hx
  have e2 : A = A' := funext fun j => funext (hA j)
  have e3 : b = b' := funext hb
  have e4 : v = v' := funext hv
  rw [e1, e2, e3, e4]

end Cert.Gcn

end
-- ==== Proof.KernelRows.lean ====
/-
  What each kernel body stores, read at one entry of its output block.

  The first body stores `max(x·Wᵢ + bᵢ, 0)·W_c` of a block of 5000 rows, the second
  `max(h·W_h + b_h, 0)·W_o + b_o`.  At the ideal values the narrowing of the matrix-unit operands is the
  identity and a matrix product into a zero accumulator is the plain sum over the contracted axis, so entry
  `(r, c)` of the stored block is `reluDot` of row `r` of the left block, the two matrices and the bias row.
-/
import proofs.«175589_j61040075211144_1_alg».proof.Proof.Gen.KernelIdeal.Skeleton
import proofs.«175589_j61040075211144_1_alg».proof.Proof.Layer
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Rows

open Cert.KernelIdeal Cert.KernelIdeal.Gen Cert.Gcn

/-! ## A matrix product into the zero accumulator, entry by entry

Each of the three products contracts the left operand's columns with the right operand's rows; its entry
`(r, c)` is the sum over the contracted axis of `l(r,j) · w(j,c)`. -/

theorem mm_x_wi_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm_x_wi_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- `[5000,128] · [128,64]`: entry `(r, c)` is `∑ⱼ l(r,j) · w(j,c)`. -/
theorem mm_x_wi_apply (l : FVec Ideal S5000x128 .bf16) (w : FVec Ideal S128x64 .bf16) (i : S5000x64.Idx) :
    matmul dot_S5000x128_S128x64_S5000x64_1_0_0_1_n_n none l w (constant S5000x64 .f32 0x00000000#32) i
      = ∑ j : Fin 128, l (ix2 (i 0) j) * w (ix2 j (i 1)) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx i ((contrEquiv1 dot_S5000x128_S128x64_S5000x64_1_0_0_1_n_n 128 rfl rfl).symm k) = ix2 (i 0) k := funext fun a => Fin.ext (by
    match a with
    | ⟨0, _⟩ => exact mm_x_wi_l0 _ _
    | ⟨1, _⟩ => exact (dot_S5000x128_S128x64_S5000x64_1_0_0_1_n_n.lhsIdx_val_of_single rfl i _).trans hk)
  have er : dot_S5000x128_S128x64_S5000x64_1_0_0_1_n_n.rhsIdx i ((contrEquiv1 dot_S5000x128_S128x64_S5000x64_1_0_0_1_n_n 128 rfl rfl).symm k) = ix2 k (i 1) := funext fun a => Fin.ext (by
    match a with
    | ⟨0, _⟩ => exact (dot_S5000x128_S128x64_S5000x64_1_0_0_1_n_n.rhsIdx_val_of_single rfl i _).trans hk
    | ⟨1, _⟩ => exact mm_x_wi_r1 _ _)
  rw [el, er]
  rfl

theorem mm_h_w_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm_h_w_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- `[5000,64] · [64,64]`: entry `(r, c)` is `∑ⱼ l(r,j) · w(j,c)`. -/
theorem mm_h_w_apply (l : FVec Ideal S5000x64 .bf16) (w : FVec Ideal S64x64 .bf16) (i : S5000x64.Idx) :
    matmul dot_S5000x64_S64x64_S5000x64_1_0_0_1_n_n none l w (constant S5000x64 .f32 0x00000000#32) i
      = ∑ j : Fin 64, l (ix2 (i 0) j) * w (ix2 j (i 1)) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx i ((contrEquiv1 dot_S5000x64_S64x64_S5000x64_1_0_0_1_n_n 64 rfl rfl).symm k) = ix2 (i 0) k := funext fun a => Fin.ext (by
    match a with
    | ⟨0, _⟩ => exact mm_h_w_l0 _ _
    | ⟨1, _⟩ => exact (dot_S5000x64_S64x64_S5000x64_1_0_0_1_n_n.lhsIdx_val_of_single rfl i _).trans hk)
  have er : dot_S5000x64_S64x64_S5000x64_1_0_0_1_n_n.rhsIdx i ((contrEquiv1 dot_S5000x64_S64x64_S5000x64_1_0_0_1_n_n 64 rfl rfl).symm k) = ix2 k (i 1) := funext fun a => Fin.ext (by
    match a with
    | ⟨0, _⟩ => exact (dot_S5000x64_S64x64_S5000x64_1_0_0_1_n_n.rhsIdx_val_of_single rfl i _).trans hk
    | ⟨1, _⟩ => exact mm_h_w_r1 _ _)
  rw [el, er]
  rfl

theorem mm_h_wo_l0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem mm_h_wo_r1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- `[5000,64] · [64,1]`: entry `(r, 0)` is `∑ⱼ l(r,j) · w(j,0)`. -/
theorem mm_h_wo_apply (l : FVec Ideal S5000x64 .bf16) (w : FVec Ideal S64x1 .bf16) (i : S5000x1.Idx) :
    matmul dot_S5000x64_S64x1_S5000x1_1_0_0_1_n_n none l w (constant S5000x1 .f32 0x00000000#32) i
      = ∑ j : Fin 64, l (ix2 (i 0) j) * w (ix2 j (i 1)) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx i ((contrEquiv1 dot_S5000x64_S64x1_S5000x1_1_0_0_1_n_n 64 rfl rfl).symm k) = ix2 (i 0) k := funext fun a => Fin.ext (by
    match a with
    | ⟨0, _⟩ => exact mm_h_wo_l0 _ _
    | ⟨1, _⟩ => exact (dot_S5000x64_S64x1_S5000x1_1_0_0_1_n_n.lhsIdx_val_of_single rfl i _).trans hk)
  have er : dot_S5000x64_S64x1_S5000x1_1_0_0_1_n_n.rhsIdx i ((contrEquiv1 dot_S5000x64_S64x1_S5000x1_1_0_0_1_n_n 64 rfl rfl).symm k) = ix2 k (i 1) := funext fun a => Fin.ext (by
    match a with
    | ⟨0, _⟩ => exact (dot_S5000x64_S64x1_S5000x1_1_0_0_1_n_n.rhsIdx_val_of_single rfl i _).trans hk
    | ⟨1, _⟩ => exact mm_h_wo_r1 _ _)
  rw [el, er]
  rfl

end Cert.KernelIdeal.Rows

end
-- ==== Proof.KernelEntries.lean ====
/-
  What each kernel body stores, entry by entry.

  The first body stores `max(x·Wᵢ + bᵢ, 0)·W_c` of a block of 5000 rows `x`; the second stores
  `max(h·W_h + b_h, 0)·W_o + b_o` of a block of 5000 rows `h`.  Entry `(r, c)` depends on row `r` of the
  left block only: it is `reluDot` of that row, the first matrix, the bias row and column `c` of the second
  matrix (plus, in the second body, the one entry of the output bias).
-/
import proofs.«175589_j61040075211144_1_alg».proof.Proof.KernelRows

noncomputable section

open Idealize.ShloMosaic Idealize.ShloMosaic.ValueIdx

namespace Cert.KernelIdeal.Rows

open Cert.KernelIdeal Cert.KernelIdeal.Gen Cert.Gcn

/-- A bias row `[1,64]` spread over 5000 rows, read at `(r, k)`, is the row's entry `k`. -/
theorem biasRow_apply (b : Vec Ideal S1x64 .f32) (i : S5000x64.Idx) :
    broadcastTo S5000x64 b Facts₀.broadcasts_S1x64_S5000x64 i = b (ix2 0 (i 1)) :=
  broadcastTo_apply b Facts₀.broadcasts_S1x64_S5000x64 i (ix2 0 (i 1)) (fun a => by
    match a with
    | ⟨0, _⟩ => rfl
    | ⟨1, _⟩ => rfl)

/-- A single bias `[1,1]` spread over a column of 5000, read anywhere, is that bias. -/
theorem biasOne_apply (b : Vec Ideal S1x1 .f32) (i : S5000x1.Idx) :
    broadcastTo S5000x1 b Facts₀.broadcasts_S1x1_S5000x1 i = b (ix2 0 0) :=
  broadcastTo_apply b Facts₀.broadcasts_S1x1_S5000x1 i (ix2 0 0) (fun a => by
    match a with
    | ⟨0, _⟩ => rfl
    | ⟨1, _⟩ => rfl)

/-- Entry `i = (r, c)` of what the first body stores. -/
theorem stage1_entry (x : Vec Ideal S5000x128 .f32) (wi : Vec Ideal S128x64 .f32) (b : Vec Ideal S1x64 .f32) (wc : Vec Ideal S64x64 .f32) (i : S5000x64.Idx) :
    k0_pay1 (F := Ideal) x wi b wc i
      = reluDot (fun j => x (ix2 (i 0) j)) (fun j k => wi (ix2 j k)) (fun k => b (ix2 0 k)) (fun k => wc (ix2 k (i 1))) := by
  unfold k0_pay1 reluDot
  simp only [shapeCast_self]
  refine (mm_h_w_apply _ _ i).trans (Finset.sum_congr rfl fun k _ => ?_)
  refine congrArg₂ (· * ·) ?_ rfl
  refine congrArg₂ max (congrArg₂ (· + ·) (mm_x_wi_apply _ _ (ix2 (i 0) k)) (biasRow_apply b (ix2 (i 0) k))) rfl

/-- Entry `i = (r, 0)` of what the second body stores. -/
theorem stage2_entry (h : Vec Ideal S5000x64 .f32) (wh : Vec Ideal S64x64 .f32) (b : Vec Ideal S1x64 .f32) (wo : Vec Ideal S64x1 .f32) (bo : Vec Ideal S1x1 .f32) (i : S5000x1.Idx) :
    k1_pay1 (F := Ideal) h wh b wo bo i
      = reluDot (fun j => h (ix2 (i 0) j)) (fun j k => wh (ix2 j k)) (fun k => b (ix2 0 k)) (fun k => wo (ix2 k (i 1))) + bo (ix2 0 0) := by
  unfold k1_pay1 reluDot
  simp only [shapeCast_self]
  refine congrArg₂ (· + ·) ((mm_h_wo_apply _ _ i).trans (Finset.sum_congr rfl fun k _ => ?_)) (biasOne_apply bo i)
  refine congrArg₂ (· * ·) ?_ rfl
  refine congrArg₂ max (congrArg₂ (· + ·) (mm_h_w_apply _ _ (ix2 (i 0) k)) (biasRow_apply b (ix2 (i 0) k))) rfl

end Cert.KernelIdeal.Rows

end
-- ==== Proof.Dense.lean ====
/-
  The two dense stages over whole arrays.

  Stage one maps the node features `x : [50000,128]` to `max(x·Wᵢ + bᵢ, 0)·W_c : [50000,64]`; stage two maps
  the propagated features `h : [50000,64]` to `max(h·W_h + b_h, 0)·W_o + b_o : [50000,1]`.  Row `r` of either
  result depends on row `r` of its input only, which is why a kernel that sweeps the rows in blocks of 5000
  and a reference that multiplies whole matrices compute the same arrays.  The bias vectors enter as plain
  functions of the hidden index so that a `[64]` vector and its `[1,64]` reshape can both be passed.
-/
import proofs.«175589_j61040075211144_1_alg».proof.Proof.Layer

noncomputable section

open Idealize.ShloMosaic Idealize.ShloMosaic.ValueIdx

namespace Cert.Gcn

/-- `max(x·Wᵢ + bᵢ, 0)·W_c`, entry `(r, c)`. -/
def dense1 (x : (⟨2, ![50000, 128]⟩ : Shape).Idx → EReal) (wi : (⟨2, ![128, 64]⟩ : Shape).Idx → EReal)
    (b : Fin 64 → EReal) (wc : (⟨2, ![64, 64]⟩ : Shape).Idx → EReal) : (⟨2, ![50000, 64]⟩ : Shape).Idx → EReal :=
  fun i => reluDot (fun j => x (ix2 (i 0) j)) (fun j k => wi (ix2 j k)) b (fun k => wc (ix2 k (i 1)))

/-- `max(h·W_h + b_h, 0)·W_o + b_o`, entry `(r, 0)`. -/
def dense2 (h : (⟨2, ![50000, 64]⟩ : Shape).Idx → EReal) (wh : (⟨2, ![64, 64]⟩ : Shape).Idx → EReal)
    (b : Fin 64 → EReal) (wo : (⟨2, ![64, 1]⟩ : Shape).Idx → EReal) (bo : EReal) : (⟨2, ![50000, 1]⟩ : Shape).Idx → EReal :=
  fun i => reluDot (fun j => h (ix2 (i 0) j)) (fun j k => wh (ix2 j k)) b (fun k => wo (ix2 k (i 1))) + bo

end Cert.Gcn

end
-- ==== Proof.Stage1Array.lean ====
/-
  The first kernel region writes `dense1` of the arrays it finds.

  The region sweeps the 50000 rows in ten blocks of 5000: grid point `t` stages rows `5000·t … 5000·t + 4999` of
  the node features, the whole of both weight matrices and of the bias row, and writes back rows
  `5000·t … 5000·t + 4999` of the result.  Since entry `(r, c)` of a stored block depends on row `r` of the
  staged features only, what point `t` writes back is block `t` of `dense1` of the whole arrays; the ten
  blocks tile the result, so the result array ends as `dense1`.  Stated for whatever contents `V` the region
  finds on entry.
-/
import proofs.«175589_j61040075211144_1_alg».proof.Proof.Gen.KernelIdeal.Frame
import proofs.«175589_j61040075211144_1_alg».proof.Proof.KernelEntries
import proofs.«175589_j61040075211144_1_alg».proof.Proof.Dense
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Blocks

open Cert.KernelIdeal Cert.KernelIdeal.Gen Cert.KernelIdeal.Rows Cert.Gcn

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps of region 0 over its ten grid points: the features and the result move with the
    point along the rows; the weights and the bias stay at block `(0, 0)`. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `dense1` of the arrays the region finds. -/
theorem flushed_stage1 (c : Dev nD) (t : Fin cfg0.N) :
    (dat0 V c).flushed 4 t = ((cfg0.win 4).blk t).view.read (Elt Ideal)
      (dense1 (V c main_arg0) (V c main_arg2) (fun k => V c main_v0 (ix2 0 k)) (V c main_arg4)) := by
  show (cfg0.win 4).cut (grid0.coords t) ((dat0 V c).after 4 t) = _
  rw [after0_4]
  unfold out0_4
  rw [View.canon_unit_zero zeroOffsets]
  simp only [View.ld_unit_zero (S := S5000x128) zeroOffsets, View.ld_unit_zero (S := S128x64) zeroOffsets,
    View.ld_unit_zero (S := S1x64) zeroOffsets, View.ld_unit_zero (S := S64x64) zeroOffsets]
  obtain ⟨e00, e01, e10, e11, e20, e21, e30, e31, e40, e41⟩ := index_facts0 t
  funext j
  refine (stage1_entry (iblk0 V c 0 t) (iblk0 V c 1 t) (iblk0 V c 2 t) (iblk0 V c 3 t) j).trans ?_
  show _ = dense1 (V c main_arg0) (V c main_arg2) (fun k => V c main_v0 (ix2 0 k)) (V c main_arg4) (((cfg0.win 4).blk t).view.emb j)
  unfold dense1
  have hj0 : (j 0).val < 5000 := (j 0).isLt
  have hj1 : (j 1).val < 64 := (j 1).isLt
  refine reluDot_congr (fun j' => ?_) (fun j' k => ?_) (fun k => ?_) (fun k => ?_)
  · show V c main_arg0 (((cfg0.win 0).blk t).view.emb (ix2 (j 0) j')) = V c main_arg0 _
    refine congrArg _ (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * j'.val = j'.val; omega
  · show V c main_arg2 (((cfg0.win 1).blk t).view.emb (ix2 j' k)) = V c main_arg2 _
    refine congrArg _ (funext fun a => Fin.ext ?_)
    match a with
    | ⟨0, _⟩ => show win0_1.index t (0 : Fin 2) * 128 + 1 * j'.val = j'.val; omega
    | ⟨1, _⟩ => show win0_1.index t (1 : Fin 2) * 64 + 1 * k.val = k.val; omega
  · show V c main_v0 (((cfg0.win 2).blk t).view.emb (ix2 0 k)) = V c main_v0 _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * k.val = k.val; omega
  · show V c main_arg4 (((cfg0.win 3).blk t).view.emb (ix2 k (j 1))) = V c main_arg4 _
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_4.index t (1 : Fin 2) * 64 + 1 * (j 1).val; omega

/-- An index of the result is in point `t`'s block iff its row is one of the block's 5000 rows. -/
theorem mem_block_stage1 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v3).slice (win0_4.rect t)).set ↔ _
  rw [View.set_slice_whole, Rect.mem_set_unit]
  exact Iff.rfl

/-- Row `r` of the result lies in the block of point `r / 5000`. -/
theorem cover_stage1 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  let t : Fin cfg0.N := ⟨(i 0).val / 5000, by rw [show cfg0.N = 10 from N_0]; omega⟩
  obtain ⟨-, -, -, -, -, -, -, -, e40, e41⟩ := index_facts0 t
  have ht : t.val = (i 0).val / 5000 := rfl
  refine ⟨t, flush0_4 t, ?_⟩
  rw [mem_block_stage1]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The result array of region 0 after the region, whatever contents `V` it was entered with. -/
theorem array_stage1 (c : Dev nD) :
    (dat0 V c).arrAt 4 cfg0.N = dense1 (V c main_arg0) (V c main_arg2) (fun k => V c main_v0 (ix2 0 k)) (V c main_arg4) :=
  (dat0 V c).arrAt_eq_of_cover 4 _ (fun t _ => flushed_stage1 V c t) cover_stage1

end Cert.KernelIdeal.Blocks

end
-- ==== Proof.Stage2Array.lean ====
/-
  The second kernel region writes `dense2` of the arrays it finds.

  As in the first region the 50000 rows are swept in ten blocks of 5000: grid point `t` stages rows
  `5000·t … 5000·t + 4999` of the propagated features, the whole of both weight matrices and of both biases, and
  writes back rows `5000·t … 5000·t + 4999` of the one-column result.  Entry `(r, 0)` of a stored block depends
  on row `r` of the staged features only, so point `t` writes back block `t` of `dense2` of the whole arrays,
  and the ten blocks tile the result.  Stated for whatever contents `V` the region finds on entry.
-/
import proofs.«175589_j61040075211144_1_alg».proof.Proof.Gen.KernelIdeal.Frame
import proofs.«175589_j61040075211144_1_alg».proof.Proof.KernelEntries
import proofs.«175589_j61040075211144_1_alg».proof.Proof.Dense
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Blocks2

open Cert.KernelIdeal Cert.KernelIdeal.Gen Cert.KernelIdeal.Rows Cert.Gcn

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps of region 1 over its ten grid points: the propagated features and the result move
    with the point along the rows; the weights and the biases stay at block `(0, 0)`. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `dense2` of the arrays the region finds. -/
theorem flushed_stage2 (c : Dev nD) (t : Fin cfg1.N) :
    (dat1 V c).flushed 5 t = ((cfg1.win 5).blk t).view.read (Elt Ideal)
      (dense2 (V c main_v44) (V c main_arg5) (fun k => V c main_v1 (ix2 0 k)) (V c main_arg7) (V c main_v2 (ix2 0 0))) := by
  show (cfg1.win 5).cut (grid1.coords t) ((dat1 V c).after 5 t) = _
  rw [after1_5]
  unfold out1_5
  rw [View.canon_unit_zero zeroOffsets]
  simp only [View.ld_unit_zero (S := S5000x64) zeroOffsets, View.ld_unit_zero (S := S64x64) zeroOffsets,
    View.ld_unit_zero (S := S1x64) zeroOffsets, View.ld_unit_zero (S := S64x1) zeroOffsets, View.ld_unit_zero (S := S1x1) zeroOffsets]
  obtain ⟨e00, e01, e10, e11, e20, e21, e30, e31, e40, e41, e50, e51⟩ := index_facts1 t
  funext j
  refine (stage2_entry (iblk1 V c 0 t) (iblk1 V c 1 t) (iblk1 V c 2 t) (iblk1 V c 3 t) (iblk1 V c 4 t) j).trans ?_
  show _ = dense2 (V c main_v44) (V c main_arg5) (fun k => V c main_v1 (ix2 0 k)) (V c main_arg7) (V c main_v2 (ix2 0 0)) (((cfg1.win 5).blk t).view.emb j)
  unfold dense2
  have hj0 : (j 0).val < 5000 := (j 0).isLt
  have hj1 : (j 1).val < 1 := (j 1).isLt
  refine congrArg₂ (· + ·) (reluDot_congr (fun j' => ?_) (fun j' k => ?_) (fun k => ?_) (fun k => ?_)) ?_
  · show V c main_v44 (((cfg1.win 0).blk t).view.emb (ix2 (j 0) j')) = V c main_v44 _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * j'.val = j'.val; omega
  · show V c main_arg5 (((cfg1.win 1).blk t).view.emb (ix2 j' k)) = V c main_arg5 _
    refine congrArg _ (funext fun a => Fin.ext ?_)
    match a with
    | ⟨0, _⟩ => show win1_1.index t (0 : Fin 2) * 64 + 1 * j'.val = j'.val; omega
    | ⟨1, _⟩ => show win1_1.index t (1 : Fin 2) * 64 + 1 * k.val = k.val; omega
  · show V c main_v1 (((cfg1.win 2).blk t).view.emb (ix2 0 k)) = V c main_v1 _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · show V c main_arg7 (((cfg1.win 3).blk t).view.emb (ix2 k (j 1))) = V c main_arg7 _
    refine congrArg _ (funext fun a => Fin.ext ?_)
    match a with
    | ⟨0, _⟩ => show win1_3.index t (0 : Fin 2) * 64 + 1 * k.val = k.val; omega
    | ⟨1, _⟩ => show win1_3.index t (1 : Fin 2) * 1 + 1 * (j 1).val = win1_5.index t (1 : Fin 2) * 1 + 1 * (j 1).val; omega
  · show V c main_v2 (((cfg1.win 4).blk t).view.emb (ix2 0 0)) = V c main_v2 _
    refine congrArg _ (funext fun a => Fin.ext ?_)
    match a with
    | ⟨0, _⟩ => show win1_4.index t (0 : Fin 2) * 1 + 1 * 0 = 0; omega
    | ⟨1, _⟩ => show win1_4.index t (1 : Fin 2) * 1 + 1 * 0 = 0; omega

/-- An index of the result is in point `t`'s block iff its row is one of the block's 5000 rows. -/
theorem mem_block_stage2 (t : Fin cfg1.N) (i : S50000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v45).slice (win1_5.rect t)).set ↔ _
  rw [View.set_slice_whole, Rect.mem_set_unit]
  exact Iff.rfl

/-- Row `r` of the result lies in the block of point `r / 5000`. -/
theorem cover_stage2 (i : S50000x1.Idx) : ∃ t : Fin cfg1.N, (cfg1.win 5).flush t = true ∧ i ∈ ((cfg1.win 5).blk t).view.set := by
  have hi0 : (i 0).val < 50000 := (i 0).isLt
  have hi1 : (i 1).val < 1 := (i 1).isLt
  let t : Fin cfg1.N := ⟨(i 0).val / 5000, by rw [show cfg1.N = 10 from N_1]; omega⟩
  obtain ⟨-, -, -, -, -, -, -, -, -, -, e50, e51⟩ := index_facts1 t
  have ht : t.val = (i 0).val / 5000 := rfl
  refine ⟨t, flush1_5 t, ?_⟩
  rw [mem_block_stage2]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 1 ≤ (i 1).val ∧ (i 1).val < win1_5.index t (1 : Fin 2) * 1 + 1; omega

/-- The result array of region 1 after the region, whatever contents `V` it was entered with. -/
theorem array_stage2 (c : Dev nD) :
    (dat1 V c).arrAt 5 cfg1.N = dense2 (V c main_v44) (V c main_arg5) (fun k => V c main_v1 (ix2 0 k)) (V c main_arg7) (V c main_v2 (ix2 0 0)) :=
  (dat1 V c).arrAt_eq_of_cover 5 _ (fun t _ => flushed_stage2 V c t) cover_stage2

end Cert.KernelIdeal.Blocks2

end
-- ==== Proof.Propagate.lean ====
/-
  The graph propagation both programs share.

  Between the two dense stages both programs run the same host operations on the stage-one features `xw` and
  the edge list: append a self loop at every node, count each node's occurrences as a source
  (`deg`), take `deg^(-1/2)`, weight every edge `(s, d)` by `deg(s)^(-1/2) · deg(d)^(-1/2)`, gather row `s` of
  `xw` scaled by that weight, and add it into row `d` of the result.  The operation is never opened here: it is
  named once, as the function of `xw` and the edge list that the reference's own stages compose, and both
  programs are shown to apply this one function.
-/
import proofs.«175589_j61040075211144_1_alg».proof.Proof.Gen.ReferenceIdeal.Read

noncomputable section

open Idealize.ShloMosaic

namespace Cert.ReferenceIdeal.Propagation

open Cert.ReferenceIdeal Cert.ReferenceIdeal.Read

variable {F : FTy → Type} [FloatOps F]

/-- The normalized neighbourhood sum of the rows of `xw` along the edges `x1` (with self loops): the scatter-add,
    into zeros and by destination node, of the gathered source rows times the edge weights. -/
def propagate (xw : (⟨S50000x64, .f32⟩ : BufTy).Contents (Elt F)) (x1 : (⟨S2x800000, .i32⟩ : BufTy).Contents (Elt F)) :
    (⟨S50000x64, .f32⟩ : BufTy).Contents (Elt F) :=
  Host.scatterAdd scatter_S50000x64_S850000x1_S850000x64_1_0_0_1 (val_main_v44 (F := F)) (val_main_v45 (F := F) x1)
    (mulf (val_main_v42 (F := F) x1)
      (Host.gather gather_S50000x64_S850000x1_S850000x64_1_0_n_n_0_1_164 xw (val_main_v40 (F := F) x1)))

/-- The reference's propagated features are `propagate` of its stage-one features. -/
theorem reference_eq (x0 : (⟨S50000x128, .f32⟩ : BufTy).Contents (Elt F)) (x1 : (⟨S2x800000, .i32⟩ : BufTy).Contents (Elt F))
    (x2 : (⟨S128x64, .f32⟩ : BufTy).Contents (Elt F)) (x3 : (⟨S64, .f32⟩ : BufTy).Contents (Elt F))
    (x4 : (⟨S64x64, .f32⟩ : BufTy).Contents (Elt F)) :
    val_main_v46 (F := F) x0 x1 x2 x3 x4 = propagate (val_main_v12 (F := F) x0 x2 x3 x4) x1 := rfl

end Cert.ReferenceIdeal.Propagation

end
-- ==== Proof.KernelHost.lean ====
/-
  What the kernel program's host operations compute.

  Before the first region three reshapes turn the bias vectors `[64]`, `[64]`, `[1]` into the rows `[1,64]`,
  `[1,64]`, `[1,1]` the regions stage.  Between the regions the host operations are the graph propagation,
  applied to the first region's result and the edge list; they leave every other buffer as it was.
-/
import proofs.«175589_j61040075211144_1_alg».proof.Proof.Gen.KernelIdeal.Launch
import proofs.«175589_j61040075211144_1_alg».proof.Proof.Propagate
import Idealize.ShloMosaic.Lib.StableHlo.Run

noncomputable section

open Idealize.ShloMosaic Idealize.ShloMosaic.TcCoe Idealize.SL.Sem Idealize.ShloMosaic.StableHlo

namespace Cert.KernelIdeal.HostOps

open Cert.KernelIdeal Cert.KernelIdeal.Gen

variable (U : Valuation τ sig (Elt Ideal))

/-! ## The reshapes before the first region -/

theorem before_v0 : after (hostOps0 (F := Ideal)) U (Proc.devRef .tc main_v0)
    = shapeCast S1x64 (U (Proc.devRef .tc main_arg3)) Facts₀.shapeCasts_S64_S1x64 := by
  after_results <;> rfl
theorem before_v1 : after (hostOps0 (F := Ideal)) U (Proc.devRef .tc main_v1)
    = shapeCast S1x64 (U (Proc.devRef .tc main_arg6)) Facts₀.shapeCasts_S64_S1x64 := by
  after_results <;> rfl
theorem before_v2 : after (hostOps0 (F := Ideal)) U (Proc.devRef .tc main_v2)
    = shapeCast S1x1 (U (Proc.devRef .tc main_arg8)) Facts₀.shapeCasts_S1_S1x1 := by
  after_results <;> rfl
theorem before_arg0 : after (hostOps0 (F := Ideal)) U (Proc.devRef .tc main_arg0) = U (Proc.devRef .tc main_arg0) := by
  after_results <;> rfl
theorem before_arg1 : after (hostOps0 (F := Ideal)) U (Proc.devRef .tc main_arg1) = U (Proc.devRef .tc main_arg1) := by
  after_results <;> rfl
theorem before_arg2 : after (hostOps0 (F := Ideal)) U (Proc.devRef .tc main_arg2) = U (Proc.devRef .tc main_arg2) := by
  after_results <;> rfl
theorem before_arg4 : after (hostOps0 (F := Ideal)) U (Proc.devRef .tc main_arg4) = U (Proc.devRef .tc main_arg4) := by
  after_results <;> rfl
theorem before_arg5 : after (hostOps0 (F := Ideal)) U (Proc.devRef .tc main_arg5) = U (Proc.devRef .tc main_arg5) := by
  after_results <;> rfl
theorem before_arg7 : after (hostOps0 (F := Ideal)) U (Proc.devRef .tc main_arg7) = U (Proc.devRef .tc main_arg7) := by
  after_results <;> rfl

/-! ## The propagation between the regions -/

set_option maxRecDepth 8192 in
set_option maxHeartbeats 4000000 in
/-- The second region's features are `propagate` of the first region's result along the edge list. -/
theorem between_v44 : after (hostOps1 (F := Ideal)) U (Proc.devRef .tc main_v44)
    = Cert.ReferenceIdeal.Propagation.propagate (F := Ideal) (U (Proc.devRef .tc main_v3)) (U (Proc.devRef .tc main_arg1)) := by
  after_results_simp <;> rfl

set_option maxRecDepth 8192 in
set_option maxHeartbeats 4000000 in
theorem between_arg5 : after (hostOps1 (F := Ideal)) U (Proc.devRef .tc main_arg5) = U (Proc.devRef .tc main_arg5) := by
  after_results_simp <;> rfl
set_option maxRecDepth 8192 in
set_option maxHeartbeats 4000000 in
theorem between_arg7 : after (hostOps1 (F := Ideal)) U (Proc.devRef .tc main_arg7) = U (Proc.devRef .tc main_arg7) := by
  after_results_simp <;> rfl
set_option maxRecDepth 8192 in
set_option maxHeartbeats 4000000 in
theorem between_v1 : after (hostOps1 (F := Ideal)) U (Proc.devRef .tc main_v1) = U (Proc.devRef .tc main_v1) := by
  after_results_simp <;> rfl
set_option maxRecDepth 8192 in
set_option maxHeartbeats 4000000 in
theorem between_v2 : after (hostOps1 (F := Ideal)) U (Proc.devRef .tc main_v2) = U (Proc.devRef .tc main_v2) := by
  after_results_simp <;> rfl

end Cert.KernelIdeal.HostOps

end
-- ==== Proof.KernelValue.lean ====
/-
  The kernel program's result as a function of its nine arguments.

  Reading the boundary fold backwards from the result buffer: the second region leaves `dense2` of the arrays it
  was entered with; of those, the propagated features are `propagate` of the first region's result and the edge
  list, and the weights and reshaped biases are as launched; the first region's result is `dense1` of the
  launched features, weights and reshaped bias.  A bias vector `[64]` reshaped to the row `[1,64]` and read at
  `(0, k)` is the vector's entry `k`.  Altogether

      result = dense2 (propagate (dense1 x Wᵢ bᵢ W_c) edges) W_h b_h W_o b_o .
-/
import proofs.«175589_j61040075211144_1_alg».proof.Proof.Gen.KernelIdeal.Frame
import proofs.«175589_j61040075211144_1_alg».proof.Proof.Stage1Array
import proofs.«175589_j61040075211144_1_alg».proof.Proof.Stage2Array
import proofs.«175589_j61040075211144_1_alg».proof.Proof.KernelHost

noncomputable section

open Idealize.ShloMosaic Idealize.ShloMosaic.TcCoe Idealize.ShloMosaic.ValueIdx Idealize.SL.Sem

namespace Cert.KernelIdeal.Result

open Cert.KernelIdeal Cert.KernelIdeal.Gen Cert.Gcn
open Cert.ReferenceIdeal.Propagation (propagate)

/-- A vector `[64]` reshaped to a row `[1,64]`, read at `(0, k)`, is the vector at `k`. -/
theorem row_of_vector (x : S64.Idx → EReal) (k : Fin 64) :
    shapeCast S1x64 x Facts₀.shapeCasts_S64_S1x64 (ix2 0 k) = x (ix1 k) :=
  shapeCast_apply x _ (ix2 0 k) (ix1 k) (by
    rw [Shape.rowMajor_val_one, Shape.rowMajor_val_two]
    show k.val = 0 * 64 + k.val
    omega)

/-- A vector `[1]` reshaped to `[1,1]`, read at `(0, 0)`, is the vector's one entry. -/
theorem one_of_vector (x : S1.Idx → EReal) :
    shapeCast S1x1 x Facts₀.shapeCasts_S1_S1x1 (ix2 0 0) = x (ix1 0) :=
  shapeCast_apply x _ (ix2 0 0) (ix1 0) (by
    rw [Shape.rowMajor_val_one, Shape.rowMajor_val_two]
    show (0 : Nat) = 0 * 1 + 0
    omega)

variable (m : (ℓ : Loc nD τ sig) → Buf (Elt Ideal) ℓ) (ρ : Dev nD → PrngReg)

/-- The network's output from the launched arguments. -/
def result (c : Dev nD) : S50000x1.Idx → EReal :=
  dense2
    (propagate (F := Ideal)
      (dense1 (m ((c : Thread nD τ).loc main_arg0)) (m ((c : Thread nD τ).loc main_arg2))
        (fun k => m ((c : Thread nD τ).loc main_arg3) (ix1 k)) (m ((c : Thread nD τ).loc main_arg4)))
      (m ((c : Thread nD τ).loc main_arg1)))
    (m ((c : Thread nD τ).loc main_arg5)) (fun k => m ((c : Thread nD τ).loc main_arg6) (ix1 k))
    (m ((c : Thread nD τ).loc main_arg7)) (m ((c : Thread nD τ).loc main_arg8) (ix1 0))

/-- The last stage of the boundary fold holds `result` in the result buffer. -/
theorem fold_value (c : Dev nD) : W4 m ρ c (Proc.devRef .tc main_v45) = result m c := by
  -- the first region's entry contents
  have a0 : V1 m ρ c main_arg0 = m ((c : Thread nD τ).loc main_arg0) := HostOps.before_arg0 (W0 m ρ c)
  have a2 : V1 m ρ c main_arg2 = m ((c : Thread nD τ).loc main_arg2) := HostOps.before_arg2 (W0 m ρ c)
  have a4 : V1 m ρ c main_arg4 = m ((c : Thread nD τ).loc main_arg4) := HostOps.before_arg4 (W0 m ρ c)
  have av0 : V1 m ρ c main_v0 = shapeCast S1x64 (m ((c : Thread nD τ).loc main_arg3)) Facts₀.shapeCasts_S64_S1x64 :=
    HostOps.before_v0 (W0 m ρ c)
  -- the first region's exit contents
  have w3 : W2 m ρ c (Proc.devRef .tc main_v3)
      = dense1 (m ((c : Thread nD τ).loc main_arg0)) (m ((c : Thread nD τ).loc main_arg2))
          (fun k => m ((c : Thread nD τ).loc main_arg3) (ix1 k)) (m ((c : Thread nD τ).loc main_arg4)) := by
    refine (W2_arr m ρ c 4).trans ((Blocks.array_stage1 (V1 m ρ) c).trans ?_)
    rw [a0, a2, a4, av0]
    exact congrArg (fun b => dense1 (m ((c : Thread nD τ).loc main_arg0)) (m ((c : Thread nD τ).loc main_arg2)) b (m ((c : Thread nD τ).loc main_arg4)))
      (funext fun k => row_of_vector (m ((c : Thread nD τ).loc main_arg3)) k)
  have w1 : W2 m ρ c (Proc.devRef .tc main_arg1) = m ((c : Thread nD τ).loc main_arg1) :=
    (W2_of_ne m ρ c main_arg1 (by decide)).trans (HostOps.before_arg1 (W0 m ρ c))
  have w5 : W2 m ρ c (Proc.devRef .tc main_arg5) = m ((c : Thread nD τ).loc main_arg5) :=
    (W2_of_ne m ρ c main_arg5 (by decide)).trans (HostOps.before_arg5 (W0 m ρ c))
  have w7 : W2 m ρ c (Proc.devRef .tc main_arg7) = m ((c : Thread nD τ).loc main_arg7) :=
    (W2_of_ne m ρ c main_arg7 (by decide)).trans (HostOps.before_arg7 (W0 m ρ c))
  have wv1 : W2 m ρ c (Proc.devRef .tc main_v1) = shapeCast S1x64 (m ((c : Thread nD τ).loc main_arg6)) Facts₀.shapeCasts_S64_S1x64 :=
    (W2_of_ne m ρ c main_v1 (by decide)).trans (HostOps.before_v1 (W0 m ρ c))
  have wv2 : W2 m ρ c (Proc.devRef .tc main_v2) = shapeCast S1x1 (m ((c : Thread nD τ).loc main_arg8)) Facts₀.shapeCasts_S1_S1x1 :=
    (W2_of_ne m ρ c main_v2 (by decide)).trans (HostOps.before_v2 (W0 m ρ c))
  -- the second region's entry contents
  have b44 : V3 m ρ c main_v44
      = propagate (F := Ideal)
          (dense1 (m ((c : Thread nD τ).loc main_arg0)) (m ((c : Thread nD τ).loc main_arg2))
            (fun k => m ((c : Thread nD τ).loc main_arg3) (ix1 k)) (m ((c : Thread nD τ).loc main_arg4)))
          (m ((c : Thread nD τ).loc main_arg1)) :=
    (HostOps.between_v44 (W2 m ρ c)).trans (by rw [w3, w1])
  have b5 : V3 m ρ c main_arg5 = m ((c : Thread nD τ).loc main_arg5) := (HostOps.between_arg5 (W2 m ρ c)).trans w5
  have b7 : V3 m ρ c main_arg7 = m ((c : Thread nD τ).loc main_arg7) := (HostOps.between_arg7 (W2 m ρ c)).trans w7
  have bv1 : V3 m ρ c main_v1 = shapeCast S1x64 (m ((c : Thread nD τ).loc main_arg6)) Facts₀.shapeCasts_S64_S1x64 :=
    (HostOps.between_v1 (W2 m ρ c)).trans wv1
  have bv2 : V3 m ρ c main_v2 = shapeCast S1x1 (m ((c : Thread nD τ).loc main_arg8)) Facts₀.shapeCasts_S1_S1x1 :=
    (HostOps.between_v2 (W2 m ρ c)).trans wv2
  -- the second region's exit contents
  refine (W4_arr m ρ c 5).trans ((Blocks2.array_stage2 (V3 m ρ) c).trans ?_)
  rw [b44, b5, b7, bv1, bv2]
  unfold result
  exact congrArg₂ (fun b bo => dense2 _ (m ((c : Thread nD τ).loc main_arg5)) b (m ((c : Thread nD τ).loc main_arg7)) bo)
    (funext fun k => row_of_vector (m ((c : Thread nD τ).loc main_arg6)) k)
    (one_of_vector (m ((c : Thread nD τ).loc main_arg8)))

end Cert.KernelIdeal.Result

end
-- ==== Proof.ReferenceDense.lean ====
/-
  The reference's dense stages are `dense1` and `dense2`.

  The reference multiplies whole matrices: `relu(x·Wᵢ + bᵢ)·W_c` before the propagation and
  `relu(h·W_h + b_h)·W_o + b_o` after it.  Reading each matrix product as the sum over its contracted axis,
  each broadcast bias at its one source entry, and the rectifier as the maximum with the zero word, entry
  `(r, c)` of either stage is `reluDot` of row `r`.
-/
import proofs.«175589_j61040075211144_1_alg».proof.Proof.Gen.ReferenceIdeal.Read
import proofs.«175589_j61040075211144_1_alg».proof.Proof.Dense

noncomputable section

open Idealize.ShloMosaic Idealize.ShloMosaic.ValueIdx

namespace Cert.ReferenceIdeal.Dense

open Cert.ReferenceIdeal Cert.ReferenceIdeal.Read Cert.Gcn

/-! ## The index maps of the reference's stages, in coordinates -/

theorem lidx_v12 (i : S50000x64.Idx) (k : Fin 64) : lidx_main_v12 i k = ix2 (i 0) k :=
  funext fun a => Fin.ext (by match a with | ⟨0, _⟩ => rfl | ⟨1, _⟩ => rfl)
theorem ridx_v12 (i : S50000x64.Idx) (k : Fin 64) : ridx_main_v12 i k = ix2 k (i 1) :=
  funext fun a => Fin.ext (by match a with | ⟨0, _⟩ => rfl | ⟨1, _⟩ => rfl)
theorem lidx_v0 (i : S50000x64.Idx) (j : Fin 128) : lidx_main_v0 i j = ix2 (i 0) j :=
  funext fun a => Fin.ext (by match a with | ⟨0, _⟩ => rfl | ⟨1, _⟩ => rfl)
theorem ridx_v0 (i : S50000x64.Idx) (j : Fin 128) : ridx_main_v0 i j = ix2 j (i 1) :=
  funext fun a => Fin.ext (by match a with | ⟨0, _⟩ => rfl | ⟨1, _⟩ => rfl)
theorem idx_bias1 (i : S50000x64.Idx) : idx_main_v1 (idx_main_v2 i) = ix1 (i 1) :=
  funext fun a => Fin.ext (by match a with | ⟨0, _⟩ => rfl)
theorem lidx_v47 (i : S50000x64.Idx) (k : Fin 64) : lidx_main_v47 i k = ix2 (i 0) k :=
  funext fun a => Fin.ext (by match a with | ⟨0, _⟩ => rfl | ⟨1, _⟩ => rfl)
theorem ridx_v47 (i : S50000x64.Idx) (k : Fin 64) : ridx_main_v47 i k = ix2 k (i 1) :=
  funext fun a => Fin.ext (by match a with | ⟨0, _⟩ => rfl | ⟨1, _⟩ => rfl)
theorem lidx_v52 (i : S50000x1.Idx) (k : Fin 64) : lidx_main_v52 i k = ix2 (i 0) k :=
  funext fun a => Fin.ext (by match a with | ⟨0, _⟩ => rfl | ⟨1, _⟩ => rfl)
theorem ridx_v52 (i : S50000x1.Idx) (k : Fin 64) : ridx_main_v52 i k = ix2 k (i 1) :=
  funext fun a => Fin.ext (by match a with | ⟨0, _⟩ => rfl | ⟨1, _⟩ => rfl)
theorem idx_bias2 (i : S50000x64.Idx) : idx_main_v48 (idx_main_v49 i) = ix1 (i 1) :=
  funext fun a => Fin.ext (by match a with | ⟨0, _⟩ => rfl)
theorem idx_bias3 (i : S50000x1.Idx) : idx_main_v53 (idx_main_v54 i) = ix1 0 :=
  funext fun a => Fin.ext (by match a with | ⟨0, _⟩ => rfl)

/-! ## Stage one -/

/-- The rectified first layer at `(r, k)`: `max (∑ⱼ x(r,j)·Wᵢ(j,k) + bᵢ(k)) 0`. -/
theorem hidden1_apply (x0 : (⟨S50000x128, .f32⟩ : BufTy).Contents (Elt Ideal)) (x2 : (⟨S128x64, .f32⟩ : BufTy).Contents (Elt Ideal))
    (x3 : (⟨S64, .f32⟩ : BufTy).Contents (Elt Ideal)) (i : S50000x64.Idx) :
    val_main_v4 (F := Ideal) x0 x2 x3 i = max (∑ j : Fin 128, x0 (ix2 (i 0) j) * x2 (ix2 j (i 1)) + x3 (ix1 (i 1))) zeroWord := by
  rw [val_main_v4_apply, val_main_v3_apply, val_main_v0_apply, val_main_v2_apply, val_main_v1_apply,
    val_main_call0_v0_apply, val_main_call0_cst_apply]
  simp only [lidx_v0, ridx_v0, idx_bias1]
  rfl

/-- The reference's first dense stage is `dense1`. -/
theorem stage1_eq (x0 : (⟨S50000x128, .f32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal)) :
    val_main_v12 (F := Ideal) x0 x2 x3 x4 = dense1 x0 x2 (fun k => x3 (ix1 k)) x4 := by
  funext i
  rw [val_main_v12_apply]
  unfold dense1 reluDot
  refine Finset.sum_congr rfl fun k _ => ?_
  exact congrArg₂ (· * ·) ((hidden1_apply x0 x2 x3 (lidx_main_v12 i k)).trans rfl) (congrArg x4 (ridx_v12 i k))

/-! ## Stage two -/

/-- The rectified second layer at `(r, k)`, over the propagated features `h`:
    `max (∑ⱼ h(r,j)·W_h(j,k) + b_h(k)) 0`. -/
theorem hidden2_apply (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal)) (i : S50000x64.Idx) :
    val_main_v51 (F := Ideal) x0 x1 x2 x3 x4 x5 x6 i
      = max (∑ j : Fin 64, val_main_v46 (F := Ideal) x0 x1 x2 x3 x4 (ix2 (i 0) j) * x5 (ix2 j (i 1)) + x6 (ix1 (i 1))) zeroWord := by
  rw [val_main_v51_apply, val_main_v50_apply, val_main_v47_apply, val_main_v49_apply, val_main_v48_apply,
    val_main_call1_v0_apply, val_main_call1_cst_apply]
  simp only [lidx_v47, ridx_v47, idx_bias2]
  rfl

/-- The reference's second dense stage is `dense2` of the propagated features. -/
theorem stage2_eq (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x1, .f32⟩ : BufTy).Contents (Elt Ideal)) (x8 : (⟨S1, .f32⟩ : BufTy).Contents (Elt Ideal)) :
    val_main_v55 (F := Ideal) x0 x1 x2 x3 x4 x5 x6 x7 x8
      = dense2 (val_main_v46 (F := Ideal) x0 x1 x2 x3 x4) x5 (fun k => x6 (ix1 k)) x7 (x8 (ix1 0)) := by
  funext i
  rw [val_main_v55_apply, val_main_v52_apply, val_main_v54_apply, val_main_v53_apply]
  unfold dense2 reluDot
  refine congrArg₂ (· + ·) (Finset.sum_congr rfl fun k _ => ?_) (congrArg x8 (idx_bias3 i))
  exact congrArg₂ (· * ·) ((hidden2_apply x0 x1 x2 x3 x4 x5 x6 (lidx_main_v52 i k)).trans rfl) (congrArg x7 (ridx_v52 i k))

end Cert.ReferenceIdeal.Dense

end
-- ==== Proof.lean ====
/-
  A two-stage graph-convolution network: kernel against reference, over the extended reals.

  Both programs compute

      out = dense2 (propagate (dense1 x Wᵢ bᵢ W_c) edges) W_h b_h W_o b_o ,

  where `dense1 = max(x·Wᵢ + bᵢ, 0)·W_c`, `dense2 = max(h·W_h + b_h, 0)·W_o + b_o` and `propagate` is the
  normalized neighbourhood sum along the edge list.  The reference multiplies whole matrices; the kernel
  program runs each dense stage as a region sweeping the 50000 rows in ten blocks of 5000, with the matrix-unit
  operands narrowed (the identity on the extended reals) and each product accumulated from zero.  A row of
  either dense stage depends on the same row of its input only, so the blocks of a region are the blocks of the
  whole-array stage; the propagation between the regions is the very same composition of host operations in
  both programs and is carried along unopened.  No law of the extended reals is needed beyond reading each
  matrix product as the sum over its contracted axis, so the precondition is never opened.

  The three frames: the two kernel programs' are the generated ones; the reference's is its run with the result
  dropped.  The idealization rewrote nothing, so `preserves` is `True`.
-/
import proofs.«175589_j61040075211144_1_alg».proof.Defs
import proofs.«175589_j61040075211144_1_alg».proof.Proof.Gen.Kernel
import proofs.«175589_j61040075211144_1_alg».proof.Proof.Gen.Kernel.Skeleton
import proofs.«175589_j61040075211144_1_alg».proof.Proof.Gen.Kernel.Launch
import proofs.«175589_j61040075211144_1_alg».proof.Proof.Gen.Kernel.Points
import proofs.«175589_j61040075211144_1_alg».proof.Proof.Gen.Kernel.Frame
import proofs.«175589_j61040075211144_1_alg».proof.Proof.Gen.KernelIdeal
import proofs.«175589_j61040075211144_1_alg».proof.Proof.Gen.KernelIdeal.Skeleton
import proofs.«175589_j61040075211144_1_alg».proof.Proof.Gen.KernelIdeal.Launch
import proofs.«175589_j61040075211144_1_alg».proof.Proof.Gen.KernelIdeal.Points
import proofs.«175589_j61040075211144_1_alg».proof.Proof.Gen.KernelIdeal.Frame
import proofs.«175589_j61040075211144_1_alg».proof.Proof.Gen.ReferenceIdeal
import proofs.«175589_j61040075211144_1_alg».proof.Proof.Gen.ReferenceIdeal.Run
import proofs.«175589_j61040075211144_1_alg».proof.Proof.Gen.ReferenceIdeal.Read
import proofs.«175589_j61040075211144_1_alg».proof.Proof.Gen.Pre_finite_inputs
import proofs.«175589_j61040075211144_1_alg».proof.Proof.KernelRun
import proofs.«175589_j61040075211144_1_alg».proof.Proof.KernelValue
import proofs.«175589_j61040075211144_1_alg».proof.Proof.ReferenceDense
import proofs.«175589_j61040075211144_1_alg».proof.Proof.Propagate
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the network's output
    `dense2 (propagate (dense1 …) edges) …` in their result buffers. -/
theorem algebraic : Cert.algebraic_KernelIdeal_ReferenceIdeal := by
  intro m ρ m' ρ' _ hagree
  refine ⟨fun c => Cert.KernelIdeal.Result.result m c, ?_, ?_⟩
  · exact (θ_run Cert.KernelIdeal.defs _ _).mono
      (fun r h c => ⟨(h c).1.trans (Cert.KernelIdeal.Result.fold_value m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, Cert.ReferenceIdeal.Dense.stage2_eq,
      Cert.ReferenceIdeal.Propagation.reference_eq, Cert.ReferenceIdeal.Dense.stage1_eq]
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
